-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 103
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000x128, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S800000x1, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S1x128, .f32⟩
  | .hbm, ⟨84, _⟩ => ⟨S50000x64, .f32⟩
  | .hbm, ⟨85, _⟩ => ⟨S800000x1, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x64, .f32⟩
  | .hbm, ⟨96, _⟩ => ⟨S800000x64, .f32⟩
  | .hbm, ⟨97, _⟩ => ⟨S_, .f32⟩
  | .hbm, ⟨98, _⟩ => ⟨S50000x64, .f32⟩
  | .hbm, ⟨99, _⟩ => ⟨S800000x1, .i32⟩
  | .hbm, ⟨100, _⟩ => ⟨S50000x64, .f32⟩
  | .hbm, ⟨101, _⟩ => ⟨S1x64, .f32⟩
  | .hbm, ⟨102, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S50000x128, .f32⟩
  | .hbm, ⟨49, _⟩ => ⟨S1x800000, .i32⟩
  | .hbm, ⟨50, _⟩ => ⟨S800000, .i32⟩
  | .hbm, ⟨51, _⟩ => ⟨S1x800000, .i32⟩
  | .hbm, ⟨52, _⟩ => ⟨S800000, .i32⟩
  | .hbm, ⟨53, _⟩ => ⟨S800000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x800000, .i32⟩
  | .hbm, ⟨77, _⟩ => ⟨S800000, .i32⟩
  | .hbm, ⟨78, _⟩ => ⟨S1x800000, .i32⟩
  | .hbm, ⟨79, _⟩ => ⟨S800000, .i32⟩
  | .hbm, ⟨80, _⟩ => ⟨S800000x1, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .f32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x64, .f32⟩
  | .hbm, ⟨103, _⟩ => ⟨S1x800000, .i32⟩
  | .hbm, ⟨104, _⟩ => ⟨S800000, .i32⟩
  | .hbm, ⟨105, _⟩ => ⟨S1x800000, .i32⟩
  | .hbm, ⟨106, _⟩ => ⟨S800000, .i32⟩
  | .hbm, ⟨107, _⟩ => ⟨S800000x1, .f32⟩
  | .hbm, ⟨108, _⟩ => ⟨S_, .i32⟩
  | .hbm, ⟨109, _⟩ => ⟨S800000, .i32⟩
  | .hbm, ⟨110, _⟩ => ⟨S800000, .i1⟩
  | .hbm, ⟨111, _⟩ => ⟨S_, .i32⟩
  | .hbm, ⟨112, _⟩ => ⟨S800000, .i32⟩
  | .hbm, ⟨113, _⟩ => ⟨S800000, .i32⟩
  | .hbm, ⟨114, _⟩ => ⟨S800000, .i32⟩
  | .hbm, ⟨115, _⟩ => ⟨S800000x1, .i32⟩
  | .hbm, ⟨116, _⟩ => ⟨S800000x64, .f32⟩
  | .hbm, ⟨117, _⟩ => ⟨S800000x64, .f32⟩
  | .hbm, ⟨118, _⟩ => ⟨S800000x64, .f32⟩
  | .hbm, ⟨119, _⟩ => ⟨S_, .f32⟩
  | .hbm, ⟨120, _⟩ => ⟨S50000x64, .f32⟩
  | .hbm, ⟨121, _⟩ => ⟨S800000x1, .i32⟩
  | .hbm, ⟨122, _⟩ => ⟨S50000x64, .f32⟩
  | .hbm, ⟨123, _⟩ => ⟨S1x64, .f32⟩
  | .hbm, ⟨124, _⟩ => ⟨S50000x64, .f32⟩
  | .hbm, ⟨125, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call2_cst : Ref sig .tc := ⟨.hbm, 99, rfl⟩
abbrev main_call2_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_12 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_14 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result named.

  The program is ten segments in order: three stretches of host operations, then four times a kernel region followed
  (but for the last) by a stretch of host operations.  The buffer contents at the boundaries between segments form a
  chain `W0, …, W10` from the launch memory: a host stretch maps the contents to the fold of its operations over
  them, a region replaces each of its arrays by what its grid's write-backs leave and keeps every other buffer.
  Every weakly fair execution terminates without a fault in a state where each unscoped buffer of each core holds
  the last contents `W10`.  Reading that fact at the result array names the result; reading it at an argument
  array, which no segment writes, gives the argument as launched.
-/
import proofs.«106877_j31250182045755_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array of each core at
    the last boundary's contents and every argument array as launched. -/
theorem run : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Named

end
-- ==== Proof.Layers.lean ====
/-
  The graph convolution's pieces, as functions of whole arrays on the extended reals.

  From the edge list `e` ([2, 800000] integers) come the source row `rowOf e` and the target row `colOf e`; an index
  is made nonnegative by adding 50000 where it is negative (`wrapIdx`).  With edge weights `w`, the degree of a
  node is the sum of the weights of the edges that point to it (`degOf`).  Its normaliser (`invSqrtDeg`) is, where
  the degree is greater than 0, the reciprocal square root of the larger of the degree and the float word
  0x0DA24260 (the single-precision number nearest 1e-30, a positive number slightly above it), and 0 elsewhere; on
  the extended reals the reciprocal square root of a positive real `x` is `(√x)⁻¹`, of 0 it is +∞, of +∞ it is 0.
  An edge's coefficient is the product of its source's normaliser, its weight and its target's normaliser
  (`normOf`).  One aggregation takes node features `h` to the array whose row `v` is the sum, over the edges that
  point to `v`, of the edge's coefficient times the row of `h` at the edge's source (`aggregate128`,
  `aggregate64` for 128 and 64 features).
-/
import proofs.«106877_j31250182045755_1_alg».proof.Proof.Gen.ReferenceIdeal
import Idealize.ShloMosaic.PureOps.Ideal

noncomputable section

namespace Cert.Layers

open Cert.ReferenceIdeal Cert.ReferenceIdeal.Gen Idealize.ShloMosaic

abbrev EdgeList := (⟨S2x800000, .i32⟩ : BufTy).Contents (Elt Ideal)
abbrev EdgeIdx := (⟨S800000, .i32⟩ : BufTy).Contents (Elt Ideal)
abbrev EdgeVal := (⟨S800000, .f32⟩ : BufTy).Contents (Elt Ideal)
abbrev NodeVal := (⟨S50000, .f32⟩ : BufTy).Contents (Elt Ideal)
abbrev Feat128 := (⟨S50000x128, .f32⟩ : BufTy).Contents (Elt Ideal)
abbrev Feat64 := (⟨S50000x64, .f32⟩ : BufTy).Contents (Elt Ideal)

/-- The edges' sources: row 0 of the edge list. -/
abbrev rowOf (e : EdgeList) : EdgeIdx :=
  shapeCast _ (extractStridedSlice S1x800000 ![0, 0] e slices_S2x800000_S1x800000_0_0) shapeCasts_S1x800000_S800000

/-- The edges' targets: row 1 of the edge list. -/
abbrev colOf (e : EdgeList) : EdgeIdx :=
  shapeCast _ (extractStridedSlice S1x800000 ![1, 0] e slices_S2x800000_S1x800000_1_0) shapeCasts_S1x800000_S800000

/-- A negative index counted from the end: 50000 is added to it. -/
abbrev wrapIdx (v : EdgeIdx) : EdgeIdx :=
  select (cmpi .slt v (broadcastInDim S800000 ![] bcast_S_S800000 (constantI S_ 32 0#32)))
    (addi v (broadcastInDim S800000 ![] bcast_S_S800000 (constantI S_ 32 50000#32))) v

/-- A node's degree: the sum of the weights of the edges that point to it. -/
abbrev degOf (col : EdgeIdx) (w : EdgeVal) : NodeVal :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 col) w

/-- Where a node's degree is greater than 0. -/
abbrev maskOf (col : EdgeIdx) (w : EdgeVal) :=
  cmpf (F := Ideal) .ogt (degOf col w) (broadcastInDim S50000 ![] bcast_S_S50000 (constant (F := Ideal) S_ .f32 0x00000000#32))

/-- The reciprocal square root of the larger of the degree and the float word 0x0DA24260. -/
abbrev rootOf (col : EdgeIdx) (w : EdgeVal) : NodeVal :=
  Host.rsqrt (F := Ideal) (maximumf (F := Ideal) (degOf col w)
    (broadcastInDim S50000 ![] bcast_S_S50000 (constant (F := Ideal) S_ .f32 0x0DA24260#32)))

/-- The scalar zero. -/
abbrev zeroScalar : (⟨S_, .f32⟩ : BufTy).Contents (Elt Ideal) := constant (F := Ideal) S_ .f32 0x00000000#32

/-- The first array where the mask holds, the scalar copied to every node elsewhere. -/
abbrev pick (mask : (⟨S50000, .i1⟩ : BufTy).Contents (Elt Ideal)) (a : NodeVal)
    (z : (⟨S_, .f32⟩ : BufTy).Contents (Elt Ideal)) : NodeVal :=
  select mask a (broadcastInDim S50000 ![] bcast_S_S50000 (id z))

/-- A node's normaliser: where the degree is greater than 0, the reciprocal square root of the larger of the degree
    and the float word 0x0DA24260; 0 elsewhere. -/
abbrev invSqrtDeg (col : EdgeIdx) (w : EdgeVal) : NodeVal := pick (maskOf col w) (rootOf col w) zeroScalar

/-- An edge's coefficient from the nodes' normalisers `dis`: the source's normaliser times the edge's weight times
    the target's normaliser. -/
abbrev coeff (row col : EdgeIdx) (dis : NodeVal) (w : EdgeVal) : EdgeVal :=
  mulf (F := Ideal) (φ := .f32)
    (mulf (F := Ideal) (φ := .f32)
      (Host.gather gather_S50000_S800000x1_S800000_n_0_n_n_0_1_1 dis
        (broadcastInDim S800000x1 ![0] bcast_S800000_S800000x1_0 (wrapIdx row))) w)
    (Host.gather gather_S50000_S800000x1_S800000_n_0_n_n_0_1_1 dis
      (broadcastInDim S800000x1 ![0] bcast_S800000_S800000x1_0 (wrapIdx col)))

/-- An edge's coefficient: its source's normaliser times its weight times its target's normaliser. -/
abbrev normOf (row col : EdgeIdx) (w : EdgeVal) : EdgeVal := coeff row col (invSqrtDeg col w) w

/-- One aggregation of 128 features: row `v` is the sum over the edges into `v` of coefficient times source row. -/
abbrev aggregate128 (row col : EdgeIdx) (n : EdgeVal) (h : Feat128) : Feat128 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 col)
    (mulf (F := Ideal) (φ := .f32)
      (broadcastInDim S800000x128 ![0, 1] bcast_S800000x1_S800000x128_0_1
        (broadcastInDim S800000x1 ![0] bcast_S800000_S800000x1_0 n))
      (Host.gather gather_S50000x128_S800000x1_S800000x128_1_0_n_n_0_1_1128 h
        (broadcastInDim S800000x1 ![0] bcast_S800000_S800000x1_0 (wrapIdx row))))

/-- One aggregation of 64 features. -/
abbrev aggregate64 (row col : EdgeIdx) (n : EdgeVal) (h : Feat64) : Feat64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 col)
    (mulf (F := Ideal) (φ := .f32)
      (broadcastInDim S800000x64 ![0, 1] bcast_S800000x1_S800000x64_0_1
        (broadcastInDim S800000x1 ![0] bcast_S800000_S800000x1_0 n))
      (Host.gather gather_S50000x64_S800000x1_S800000x64_1_0_n_n_0_1_164 h
        (broadcastInDim S800000x1 ![0] bcast_S800000_S800000x1_0 (wrapIdx row))))

end Cert.Layers

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Product.lean ====
/-
  The first region: a matrix product, 5000 rows at a time.

  The region's grid has ten points.  Point `t` reads rows `5000·t … 5000·t + 4999` of a [50000, 128] array `A`
  and the whole of a [128, 128] matrix `W`, and writes back, to the same rows of the result array, the products
  `Σ_k A(r, k) · W(k, q)` (a change of float format is the identity on the extended reals, and the product is
  accumulated from zero).  The ten row blocks tile the result array, so after the region it holds
  `Σ_k A(r, k) · W(k, q)` at every `(r, q)`: the matrix product of the whole arrays, which is also what a single
  contraction of axis 1 of `A` with axis 0 of `W` denotes.
-/
import proofs.«106877_j31250182045755_1_alg».proof.Proof.Gen.KernelIdeal.Frame
import proofs.«106877_j31250182045755_1_alg».proof.Proof.LibDotRows
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The body's result at an entry of the block: the sum over `k` of the row's entries times the column's. -/
theorem body_apply (x0 : Vec Ideal S5000x128 .f32) (x1 : Vec Ideal S128x128 .f32) (y : S5000x128.Idx) :
    k0_pay1 (F := Ideal) x0 x1 y = ∑ k : Fin 128, x0 (ix2 (y 0) k) * x1 (ix2 k (y 1)) := by
  obtain ⟨p, q, rfl⟩ : ∃ (p : Fin 5000) (q : Fin 128), y = ix2 p q := ⟨y 0, y 1, eq_ix2 y⟩
  unfold k0_pay1
  show matmul (F := Ideal) dot_S5000x128_S128x128_S5000x128_1_0_0_1_n_n none
      (truncf (F := Ideal) (φ := .f32) .bf16 x0 bitsLt_bf16_f32)
      (truncf (F := Ideal) (φ := .f32) .bf16 x1 bitsLt_bf16_f32)
      (constant (F := Ideal) S5000x128 .f32 0x00000000#32) (ix2 p q) = _
  exact matmul_zero_rows dot_S5000x128_S128x128_S5000x128_1_0_0_1_n_n none rfl rfl
    (fun _ _ => rfl) (fun _ _ => rfl) (fun _ _ => rfl) (fun _ _ => rfl)
    (truncf (F := Ideal) (φ := .f32) .bf16 x0 bitsLt_bf16_f32)
    (truncf (F := Ideal) (φ := .f32) .bf16 x1 bitsLt_bf16_f32) p q

/-- The product of the whole arrays, as one contraction of axis 1 of `A` with axis 0 of `W`. -/
abbrev product (d : DotDims S50000x128 S128x128 S50000x128) (A : S50000x128.Idx → Elt Ideal .f32)
    (W : S128x128.Idx → Elt Ideal .f32) : S50000x128.Idx → Elt Ideal .f32 :=
  Host.dotGeneral (F := Ideal) (φ₁ := .f32) (φ₂ := .f32) d none A W

section
variable (d : DotDims S50000x128 S128x128 S50000x128)
  (hr : d.contr.rank = 1) (hs : d.contr.size ⟨0, by omega⟩ = 128)
  (h1 : ∀ j k, (d.lhsIdx j k 0).val = (j 0).val) (h2 : ∀ j k, (d.lhsIdx j k 1).val = (k ⟨0, by omega⟩).val)
  (h3 : ∀ j k, (d.rhsIdx j k 0).val = (k ⟨0, by omega⟩).val) (h4 : ∀ j k, (d.rhsIdx j k 1).val = (j 1).val)

include hr hs h1 h2 h3 h4 in
/-- The whole-array product read at an index. -/
theorem product_apply (A : S50000x128.Idx → Elt Ideal .f32) (W : S128x128.Idx → Elt Ideal .f32) (i : S50000x128.Idx) :
    product d A W i = ∑ k : Fin 128, A (ix2 (i 0) k) * W (ix2 k (i 1)) :=
  (congrArg (product d A W) (eq_ix2 i)).trans
    (dotGeneral_rows d none .single hr hs h1 h2 h3 h4 A W (i 0) (i 1))

/-- The block indices over the grid: the row windows sit at block row `t`, the matrix window at its only block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

include hr hs h1 h2 h3 h4 in
/-- What point `t` writes back is block `t` of the product of the whole arrays. -/
theorem flushed_eq (c : Dev nD) (t : Fin cfg0.N) :
    (dat0 V c).flushed 2 t = ((cfg0.win 2).blk t).view.read (Elt Ideal)
      (product d (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_index t
  funext j
  refine (body_apply (iblk0 V c 0 t) (iblk0 V c 1 t) j).trans ?_
  refine Eq.trans ?_ (product_apply d hr hs h1 h2 h3 h4 (V c main_arg0) (V c main_arg3) (((cfg0.win 2).blk t).view.emb j)).symm
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1' : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hA : iblk0 V c 0 t (ix2 (j 0) k) = V c main_arg0 (ix2 ((((cfg0.win 2).blk t).view.emb j) 0) k) :=
    congrArg (V c main_arg0) h0
  have hB : iblk0 V c 1 t (ix2 k (j 1)) = V c main_arg3 (ix2 k ((((cfg0.win 2).blk t).view.emb j) 1)) :=
    congrArg (V c main_arg3) h1'
  exact congrArg₂ (fun a b : Ideal .f32 => a * b) hA hB

/-- An index of the result array lies in point `t`'s block iff each coordinate lies in the block's range. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Every index of the result array lies in the block of the point its row falls in. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by show _ < grid0.N; rw [N_0]; omega
  refine ⟨⟨(i 0).val / 5000, hN⟩, flush0_2 _, ?_⟩
  obtain ⟨e0, e1, e2, e3, e4, e5⟩ := block_index ⟨(i 0).val / 5000, hN⟩
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 128 ≤ (i 1).val
      ∧ (i 1).val < win0_2.index ⟨(i 0).val / 5000, hN⟩ (1 : Fin 2) * 128 + 128
    rw [e5]; omega

include hr hs h1 h2 h3 h4 in
/-- After the region the result array is the product of the whole arrays. -/
theorem array_eq (c : Dev nD) :
    (dat0 V c).arrAt 2 cfg0.N = product d (V c main_arg0) (V c main_arg3) :=
  (dat0 V c).arrAt_eq_of_cover 2 _ (fun t _ => flushed_eq V d hr hs h1 h2 h3 h4 c t) covered

end

end Cert.KernelIdeal.Product

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.Hidden.lean ====
/-
  The second region: bias, rectifier and matrix product, 5000 rows at a time.

  The region's grid has ten points.  Point `t` reads rows `5000·t … 5000·t + 4999` of a [50000, 128] array `A`,
  the whole of a [1, 128] row `B` and the whole of a [128, 128] matrix `W`, and writes back, to the same rows of
  the result array, `Σ_k max(A(r, k) + B(0, k), 0) · W(k, q)` (a change of float format is the identity on the
  extended reals, and the product is accumulated from zero).  The ten row blocks tile the result array, so after the
  region it holds that sum at every `(r, q)`: the matrix product of `max(A + B copied down every row, 0)` with
  `W`, which is also what a single contraction of axis 1 of the rectified array with axis 0 of `W` denotes.
-/
import proofs.«106877_j31250182045755_1_alg».proof.Proof.Gen.KernelIdeal.Frame
import proofs.«106877_j31250182045755_1_alg».proof.Proof.LibDotRows
import proofs.«106877_j31250182045755_1_alg».proof.Proof.LibHostRowScalar
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hidden

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The body's result at an entry of the block: the sum over `k` of the rectified biased row's entries times the
    column's. -/
theorem body_apply (x0 : Vec Ideal S5000x128 .f32) (x1 : Vec Ideal S1x128 .f32) (x2 : Vec Ideal S128x128 .f32)
    (y : S5000x128.Idx) :
    k1_pay1 (F := Ideal) x0 x1 x2 y
      = ∑ k : Fin 128, max (x0 (ix2 (y 0) k) + x1 (ix2 (0 : Fin 1) k)) (Ideal.ofBits .f32 0x00000000#32)
          * x2 (ix2 k (y 1)) := by
  obtain ⟨p, q, rfl⟩ : ∃ (p : Fin 5000) (q : Fin 128), y = ix2 p q := ⟨y 0, y 1, eq_ix2 y⟩
  unfold k1_pay1
  show matmul (F := Ideal) dot_S5000x128_S128x128_S5000x128_1_0_0_1_n_n none
      (truncf (F := Ideal) (φ := .f32) .bf16
        (maximumf (F := Ideal) (φ := .f32)
          (addf (F := Ideal) (φ := .f32) (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32))) bitsLt_bf16_f32)
      (truncf (F := Ideal) (φ := .f32) .bf16 x2 bitsLt_bf16_f32)
      (constant (F := Ideal) S5000x128 .f32 0x00000000#32) (ix2 p q) = _
  refine (matmul_zero_rows dot_S5000x128_S128x128_S5000x128_1_0_0_1_n_n none rfl rfl
    (fun _ _ => rfl) (fun _ _ => rfl) (fun _ _ => rfl) (fun _ _ => rfl) _ _ p q).trans ?_
  refine Finset.sum_congr rfl fun k _ => ?_
  show max (shapeCast S5000x128 x0 shapeCasts_S5000x128_S5000x128 (ix2 p k)
        + broadcastTo S5000x128 (shapeCast S1x128 x1 shapeCasts_S1x128_S1x128) broadcasts_S1x128_S5000x128 (ix2 p k))
      (Ideal.ofBits .f32 0x00000000#32) * x2 (ix2 k q) = _
  rw [shapeCast_self, shapeCast_self, broadcastTo_1b_ab_apply]

/-- `max(A + B copied down every row, 0)`, as whole arrays. -/
abbrev rectified (A : S50000x128.Idx → Elt Ideal .f32) (B : S1x128.Idx → Elt Ideal .f32)
    (hb : S1x128.BroadcastsInDim S50000x128 ![0, 1]) (hz : S_.BroadcastsInDim S50000x128 ![]) :
    S50000x128.Idx → Elt Ideal .f32 :=
  maximumf (F := Ideal) (φ := .f32)
    (addf (F := Ideal) (φ := .f32) A (broadcastInDim S50000x128 ![0, 1] hb B))
    (broadcastInDim S50000x128 ![] hz (constant (F := Ideal) S_ .f32 0x00000000#32))

/-- The rectified array at an index. -/
theorem rectified_apply (A : S50000x128.Idx → Elt Ideal .f32) (B : S1x128.Idx → Elt Ideal .f32)
    (hb : S1x128.BroadcastsInDim S50000x128 ![0, 1]) (hz : S_.BroadcastsInDim S50000x128 ![]) (i : S50000x128.Idx) :
    rectified A B hb hz i = max (A i + B (ix2 (0 : Fin 1) (i 1))) (Ideal.ofBits .f32 0x00000000#32) := by
  have e1 : broadcastInDim S50000x128 ![0, 1] hb B i = B (ix2 (0 : Fin 1) (i 1)) :=
    (congrArg (broadcastInDim S50000x128 ![0, 1] hb B) (eq_ix2 i)).trans (broadcastInDim_row_apply B hb (i 0) (i 1))
  have e2 : broadcastInDim S50000x128 ![] hz (constant (F := Ideal) S_ .f32 0x00000000#32) i
      = Ideal.ofBits .f32 0x00000000#32 :=
    broadcastInDim_apply ![] hz (constant (F := Ideal) S_ .f32 0x00000000#32) i ix0 (fun a => a.elim0)
  show max (A i + broadcastInDim S50000x128 ![0, 1] hb B i)
      (broadcastInDim S50000x128 ![] hz (constant (F := Ideal) S_ .f32 0x00000000#32) i) = _
  rw [e1, e2]

/-- The product of the whole arrays, as one contraction of axis 1 of `X` with axis 0 of `W`. -/
abbrev product (d : DotDims S50000x128 S128x128 S50000x128) (X : S50000x128.Idx → Elt Ideal .f32)
    (W : S128x128.Idx → Elt Ideal .f32) : S50000x128.Idx → Elt Ideal .f32 :=
  Host.dotGeneral (F := Ideal) (φ₁ := .f32) (φ₂ := .f32) d none X W

section
variable (d : DotDims S50000x128 S128x128 S50000x128)
  (hr : d.contr.rank = 1) (hs : d.contr.size ⟨0, by omega⟩ = 128)
  (h1 : ∀ j k, (d.lhsIdx j k 0).val = (j 0).val) (h2 : ∀ j k, (d.lhsIdx j k 1).val = (k ⟨0, by omega⟩).val)
  (h3 : ∀ j k, (d.rhsIdx j k 0).val = (k ⟨0, by omega⟩).val) (h4 : ∀ j k, (d.rhsIdx j k 1).val = (j 1).val)
  (hb : S1x128.BroadcastsInDim S50000x128 ![0, 1]) (hz : S_.BroadcastsInDim S50000x128 ![])

include hr hs h1 h2 h3 h4 in
/-- The whole-array layer read at an index. -/
theorem layer_apply (A : S50000x128.Idx → Elt Ideal .f32) (B : S1x128.Idx → Elt Ideal .f32)
    (W : S128x128.Idx → Elt Ideal .f32) (i : S50000x128.Idx) :
    product d (rectified A B hb hz) W i
      = ∑ k : Fin 128, max (A (ix2 (i 0) k) + B (ix2 (0 : Fin 1) k)) (Ideal.ofBits .f32 0x00000000#32)
          * W (ix2 k (i 1)) :=
  ((congrArg (product d (rectified A B hb hz) W) (eq_ix2 i)).trans
    (dotGeneral_rows d none .single hr hs h1 h2 h3 h4 (rectified A B hb hz) W (i 0) (i 1))).trans
    (Finset.sum_congr rfl fun k _ =>
      congrArg (fun a : Ideal .f32 => a * W (ix2 k (i 1))) (rectified_apply A B hb hz (ix2 (i 0) k)))

/-- The block indices over the grid: the row windows sit at block row `t`, the others at their only block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

include hr hs h1 h2 h3 h4 in
/-- What point `t` writes back is block `t` of the whole-array layer. -/
theorem flushed_eq (c : Dev nD) (t : Fin cfg1.N) :
    (dat1 V c).flushed 3 t = ((cfg1.win 3).blk t).view.read (Elt Ideal)
      (product d (rectified (V c main_v42) (V c main_v43) hb hz) (V c main_arg5)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x128) zero_offsets]
  obtain ⟨e0, e1, e2, e3, e4, e5, e6, e7⟩ := block_index t
  funext j
  refine (body_apply (iblk1 V c 0 t) (iblk1 V c 1 t) (iblk1 V c 2 t) j).trans ?_
  refine Eq.trans ?_ (layer_apply d hr hs h1 h2 h3 h4 hb hz (V c main_v42) (V c main_v43) (V c main_arg5)
    (((cfg1.win 3).blk t).view.emb j)).symm
  refine Finset.sum_congr rfl fun k _ => ?_
  have g0 : ((cfg1.win 0).blk t).view.emb (ix2 (j 0) k) = ix2 ((((cfg1.win 3).blk t).view.emb j) 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have g1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have g2 : ((cfg1.win 2).blk t).view.emb (ix2 k (j 1)) = ix2 k ((((cfg1.win 3).blk t).view.emb j) 1) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  have hA : iblk1 V c 0 t (ix2 (j 0) k) = V c main_v42 (ix2 ((((cfg1.win 3).blk t).view.emb j) 0) k) :=
    congrArg (V c main_v42) g0
  have hB : iblk1 V c 1 t (ix2 (0 : Fin 1) k) = V c main_v43 (ix2 (0 : Fin 1) k) := congrArg (V c main_v43) g1
  have hW : iblk1 V c 2 t (ix2 k (j 1)) = V c main_arg5 (ix2 k ((((cfg1.win 3).blk t).view.emb j) 1)) :=
    congrArg (V c main_arg5) g2
  exact congrArg₂ (fun a b : Ideal .f32 => a * b)
    (congrArg₂ (fun a b : Ideal .f32 => max (a + b) (Ideal.ofBits .f32 0x00000000#32)) hA hB) hW

/-- An index of the result array lies in point `t`'s block iff each coordinate lies in the block's range. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v44).slice (win1_3.rect t)).set ↔ _
  rw [View.set_slice_whole, Rect.mem_set_unit]
  exact Iff.rfl

/-- Every index of the result array lies in the block of the point its row falls in. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : (i 0).val / 5000 < cfg1.N := by show _ < grid1.N; rw [N_1]; omega
  refine ⟨⟨(i 0).val / 5000, hN⟩, flush1_3 _, ?_⟩
  obtain ⟨e0, e1, e2, e3, e4, e5, e6, e7⟩ := block_index ⟨(i 0).val / 5000, hN⟩
  rw [mem_block]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    rw [e7]; omega

include hr hs h1 h2 h3 h4 in
/-- After the region the result array is the whole-array layer. -/
theorem array_eq (c : Dev nD) :
    (dat1 V c).arrAt 3 cfg1.N = product d (rectified (V c main_v42) (V c main_v43) hb hz) (V c main_arg5) :=
  (dat1 V c).arrAt_eq_of_cover 3 _ (fun t _ => flushed_eq V d hr hs h1 h2 h3 h4 hb hz c t) covered

end

end Cert.KernelIdeal.Hidden

end
-- ==== Proof.Final.lean ====
/-
  The third region: bias, rectifier and matrix product, 5000 rows at a time.

  The region's grid has ten points.  Point `t` reads rows `5000·t … 5000·t + 4999` of a [50000, 128] array `A`,
  the whole of a [1, 128] row `B` and the whole of a [128, 64] matrix `W`, and writes back, to the same rows of
  the result array, `Σ_k max(A(r, k) + B(0, k), 0) · W(k, q)` (a change of float format is the identity on the
  extended reals, and the product is accumulated from zero).  The ten row blocks tile the result array, so after the
  region it holds that sum at every `(r, q)`: the matrix product of `max(A + B copied down every row, 0)` with
  `W`, which is also what a single contraction of axis 1 of the rectified array with axis 0 of `W` denotes.
-/
import proofs.«106877_j31250182045755_1_alg».proof.Proof.Gen.KernelIdeal.Frame
import proofs.«106877_j31250182045755_1_alg».proof.Proof.LibDotRows
import proofs.«106877_j31250182045755_1_alg».proof.Proof.LibHostRowScalar
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The body's result at an entry of the block: the sum over `k` of the rectified biased row's entries times the
    column's. -/
theorem body_apply (x0 : Vec Ideal S5000x128 .f32) (x1 : Vec Ideal S1x128 .f32) (x2 : Vec Ideal S128x64 .f32)
    (y : S5000x64.Idx) :
    k2_pay1 (F := Ideal) x0 x1 x2 y
      = ∑ k : Fin 128, max (x0 (ix2 (y 0) k) + x1 (ix2 (0 : Fin 1) k)) (Ideal.ofBits .f32 0x00000000#32)
          * x2 (ix2 k (y 1)) := by
  obtain ⟨p, q, rfl⟩ : ∃ (p : Fin 5000) (q : Fin 64), y = ix2 p q := ⟨y 0, y 1, eq_ix2 y⟩
  unfold k2_pay1
  show matmul (F := Ideal) dot_S5000x128_S128x64_S5000x64_1_0_0_1_n_n none
      (truncf (F := Ideal) (φ := .f32) .bf16
        (maximumf (F := Ideal) (φ := .f32)
          (addf (F := Ideal) (φ := .f32) (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32))) bitsLt_bf16_f32)
      (truncf (F := Ideal) (φ := .f32) .bf16 x2 bitsLt_bf16_f32)
      (constant (F := Ideal) S5000x64 .f32 0x00000000#32) (ix2 p q) = _
  refine (matmul_zero_rows dot_S5000x128_S128x64_S5000x64_1_0_0_1_n_n none rfl rfl
    (fun _ _ => rfl) (fun _ _ => rfl) (fun _ _ => rfl) (fun _ _ => rfl) _ _ p q).trans ?_
  refine Finset.sum_congr rfl fun k _ => ?_
  show max (shapeCast S5000x128 x0 shapeCasts_S5000x128_S5000x128 (ix2 p k)
        + broadcastTo S5000x128 (shapeCast S1x128 x1 shapeCasts_S1x128_S1x128) broadcasts_S1x128_S5000x128 (ix2 p k))
      (Ideal.ofBits .f32 0x00000000#32) * x2 (ix2 k q) = _
  rw [shapeCast_self, shapeCast_self, broadcastTo_1b_ab_apply]

/-- `max(A + B copied down every row, 0)`, as whole arrays. -/
abbrev rectified (A : S50000x128.Idx → Elt Ideal .f32) (B : S1x128.Idx → Elt Ideal .f32)
    (hb : S1x128.BroadcastsInDim S50000x128 ![0, 1]) (hz : S_.BroadcastsInDim S50000x128 ![]) :
    S50000x128.Idx → Elt Ideal .f32 :=
  maximumf (F := Ideal) (φ := .f32)
    (addf (F := Ideal) (φ := .f32) A (broadcastInDim S50000x128 ![0, 1] hb B))
    (broadcastInDim S50000x128 ![] hz (constant (F := Ideal) S_ .f32 0x00000000#32))

/-- The rectified array at an index. -/
theorem rectified_apply (A : S50000x128.Idx → Elt Ideal .f32) (B : S1x128.Idx → Elt Ideal .f32)
    (hb : S1x128.BroadcastsInDim S50000x128 ![0, 1]) (hz : S_.BroadcastsInDim S50000x128 ![]) (i : S50000x128.Idx) :
    rectified A B hb hz i = max (A i + B (ix2 (0 : Fin 1) (i 1))) (Ideal.ofBits .f32 0x00000000#32) := by
  have e1 : broadcastInDim S50000x128 ![0, 1] hb B i = B (ix2 (0 : Fin 1) (i 1)) :=
    (congrArg (broadcastInDim S50000x128 ![0, 1] hb B) (eq_ix2 i)).trans (broadcastInDim_row_apply B hb (i 0) (i 1))
  have e2 : broadcastInDim S50000x128 ![] hz (constant (F := Ideal) S_ .f32 0x00000000#32) i
      = Ideal.ofBits .f32 0x00000000#32 :=
    broadcastInDim_apply ![] hz (constant (F := Ideal) S_ .f32 0x00000000#32) i ix0 (fun a => a.elim0)
  show max (A i + broadcastInDim S50000x128 ![0, 1] hb B i)
      (broadcastInDim S50000x128 ![] hz (constant (F := Ideal) S_ .f32 0x00000000#32) i) = _
  rw [e1, e2]

/-- The product of the whole arrays, as one contraction of axis 1 of `X` with axis 0 of `W`. -/
abbrev product (d : DotDims S50000x128 S128x64 S50000x64) (X : S50000x128.Idx → Elt Ideal .f32)
    (W : S128x64.Idx → Elt Ideal .f32) : S50000x64.Idx → Elt Ideal .f32 :=
  Host.dotGeneral (F := Ideal) (φ₁ := .f32) (φ₂ := .f32) d none X W

section
variable (d : DotDims S50000x128 S128x64 S50000x64)
  (hr : d.contr.rank = 1) (hs : d.contr.size ⟨0, by omega⟩ = 128)
  (h1 : ∀ j k, (d.lhsIdx j k 0).val = (j 0).val) (h2 : ∀ j k, (d.lhsIdx j k 1).val = (k ⟨0, by omega⟩).val)
  (h3 : ∀ j k, (d.rhsIdx j k 0).val = (k ⟨0, by omega⟩).val) (h4 : ∀ j k, (d.rhsIdx j k 1).val = (j 1).val)
  (hb : S1x128.BroadcastsInDim S50000x128 ![0, 1]) (hz : S_.BroadcastsInDim S50000x128 ![])

include hr hs h1 h2 h3 h4 in
/-- The whole-array layer read at an index. -/
theorem layer_apply (A : S50000x128.Idx → Elt Ideal .f32) (B : S1x128.Idx → Elt Ideal .f32)
    (W : S128x64.Idx → Elt Ideal .f32) (i : S50000x64.Idx) :
    product d (rectified A B hb hz) W i
      = ∑ k : Fin 128, max (A (ix2 (i 0) k) + B (ix2 (0 : Fin 1) k)) (Ideal.ofBits .f32 0x00000000#32)
          * W (ix2 k (i 1)) :=
  ((congrArg (product d (rectified A B hb hz) W) (eq_ix2 i)).trans
    (dotGeneral_rows d none .single hr hs h1 h2 h3 h4 (rectified A B hb hz) W (i 0) (i 1))).trans
    (Finset.sum_congr rfl fun k _ =>
      congrArg (fun a : Ideal .f32 => a * W (ix2 k (i 1))) (rectified_apply A B hb hz (ix2 (i 0) k)))

/-- The block indices over the grid: the row windows sit at block row `t`, the others at their only block. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

include hr hs h1 h2 h3 h4 in
/-- What point `t` writes back is block `t` of the whole-array layer. -/
theorem flushed_eq (c : Dev nD) (t : Fin cfg2.N) :
    (dat2 V c).flushed 3 t = ((cfg2.win 3).blk t).view.read (Elt Ideal)
      (product d (rectified (V c main_v57) (V c main_v58) hb hz) (V c main_arg7)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x64) zero_offsets]
  obtain ⟨e0, e1, e2, e3, e4, e5, e6, e7⟩ := block_index t
  funext j
  refine (body_apply (iblk2 V c 0 t) (iblk2 V c 1 t) (iblk2 V c 2 t) j).trans ?_
  refine Eq.trans ?_ (layer_apply d hr hs h1 h2 h3 h4 hb hz (V c main_v57) (V c main_v58) (V c main_arg7)
    (((cfg2.win 3).blk t).view.emb j)).symm
  refine Finset.sum_congr rfl fun k _ => ?_
  have g0 : ((cfg2.win 0).blk t).view.emb (ix2 (j 0) k) = ix2 ((((cfg2.win 3).blk t).view.emb j) 0) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have g1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have g2 : ((cfg2.win 2).blk t).view.emb (ix2 k (j 1)) = ix2 k ((((cfg2.win 3).blk t).view.emb j) 1) := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  have hA : iblk2 V c 0 t (ix2 (j 0) k) = V c main_v57 (ix2 ((((cfg2.win 3).blk t).view.emb j) 0) k) :=
    congrArg (V c main_v57) g0
  have hB : iblk2 V c 1 t (ix2 (0 : Fin 1) k) = V c main_v58 (ix2 (0 : Fin 1) k) := congrArg (V c main_v58) g1
  have hW : iblk2 V c 2 t (ix2 k (j 1)) = V c main_arg7 (ix2 k ((((cfg2.win 3).blk t).view.emb j) 1)) :=
    congrArg (V c main_arg7) g2
  exact congrArg₂ (fun a b : Ideal .f32 => a * b)
    (congrArg₂ (fun a b : Ideal .f32 => max (a + b) (Ideal.ofBits .f32 0x00000000#32)) hA hB) hW

/-- An index of the result array lies in point `t`'s block iff each coordinate lies in the block's range. -/
theorem mem_block (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v59).slice (win2_3.rect t)).set ↔ _
  rw [View.set_slice_whole, Rect.mem_set_unit]
  exact Iff.rfl

/-- Every index of the result array lies in the block of the point its row falls in. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 5000 < cfg2.N := by show _ < grid2.N; rw [N_2]; omega
  refine ⟨⟨(i 0).val / 5000, hN⟩, flush2_3 _, ?_⟩
  obtain ⟨e0, e1, e2, e3, e4, e5, e6, e7⟩ := block_index ⟨(i 0).val / 5000, hN⟩
  rw [mem_block]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, hN⟩ (1 : Fin 2) * 64 ≤ (i 1).val
      ∧ (i 1).val < win2_3.index ⟨(i 0).val / 5000, hN⟩ (1 : Fin 2) * 64 + 64
    rw [e7]; omega

include hr hs h1 h2 h3 h4 in
/-- After the region the result array is the whole-array layer. -/
theorem array_eq (c : Dev nD) :
    (dat2 V c).arrAt 3 cfg2.N = product d (rectified (V c main_v57) (V c main_v58) hb hz) (V c main_arg7) :=
  (dat2 V c).arrAt_eq_of_cover 3 _ (fun t _ => flushed_eq V d hr hs h1 h2 h3 h4 hb hz c t) covered

end

end Cert.KernelIdeal.Final

end
-- ==== Proof.BiasAdd.lean ====
/-
  The last region: a bias row added to every row.

  The region's grid has ten points.  Point `t` reads rows `5000·t … 5000·t + 4999` of a [50000, 64] array `A`
  and the whole of a [1, 64] row `B`, and writes back, to the same rows of the result array, the sums
  `A(r, q) + B(0, q)`.  The ten row blocks tile the result array, so after the region the result array holds
  `A(r, q) + B(0, q)` at every `(r, q)`: the array `A` plus the row `B` copied down all 50000 rows.
-/
import proofs.«106877_j31250182045755_1_alg».proof.Proof.Gen.KernelIdeal.Frame
import proofs.«106877_j31250182045755_1_alg».proof.Proof.LibHostRowScalar
import Idealize.ShloMosaic.Lib.Pipeline.Value
import Idealize.ShloMosaic.Lib.ValueIdx
import Idealize.ShloMosaic.Lib.ValueLayout

set_option maxRecDepth 16384

noncomputable section

namespace Cert.KernelIdeal.BiasAdd

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The offsets of a whole-block access are all zero. -/
theorem zero_offsets : (![0, 0] : Fin 2 → Nat) = fun _ => 0 := funext fun a => by fin_cases a <;> rfl

/-- The body's result at an entry of the block: the input block's entry plus the row's entry in that column. -/
theorem body_apply (x0 : Vec Ideal S5000x64 .f32) (x1 : Vec Ideal S1x64 .f32) (y : S5000x64.Idx) :
    k3_pay1 (F := Ideal) x0 x1 y = x0 y + x1 (ix2 (0 : Fin 1) (y 1)) := by
  obtain ⟨p, q, rfl⟩ : ∃ (p : Fin 5000) (q : Fin 64), y = ix2 p q := ⟨y 0, y 1, eq_ix2 y⟩
  unfold k3_pay1
  show shapeCast S5000x64 x0 shapeCasts_S5000x64_S5000x64 (ix2 p q)
      + broadcastTo S5000x64 (shapeCast S1x64 x1 shapeCasts_S1x64_S1x64) broadcasts_S1x64_S5000x64 (ix2 p q) = _
  rw [shapeCast_self, shapeCast_self, broadcastTo_1b_ab_apply]

/-- The array `A` plus the [1, 64] row `B` copied down all 50000 rows. -/
abbrev biased (A : S50000x64.Idx → Elt Ideal .f32) (B : S1x64.Idx → Elt Ideal .f32)
    (hb : S1x64.BroadcastsInDim S50000x64 ![0, 1]) : S50000x64.Idx → Elt Ideal .f32 :=
  addf (F := Ideal) (φ := .f32) A (broadcastInDim S50000x64 ![0, 1] hb B)

/-- A [1, 64] row copied down 50000 rows reads, at any index, the row's entry in that column. -/
theorem row_copied (B : S1x64.Idx → Ideal .f32) (hb : S1x64.BroadcastsInDim S50000x64 ![0, 1]) (i : S50000x64.Idx) :
    broadcastInDim S50000x64 ![0, 1] hb B i = B (ix2 (0 : Fin 1) (i 1)) :=
  (congrArg (broadcastInDim S50000x64 ![0, 1] hb B) (eq_ix2 i)).trans (broadcastInDim_row_apply B hb (i 0) (i 1))

/-- The block indices over the grid: the two [·, 64] windows sit at block row `t`, the row window at its only block. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the array `A + (B copied down)`. -/
theorem flushed_eq (c : Dev nD) (hb : S1x64.BroadcastsInDim S50000x64 ![0, 1]) (t : Fin cfg3.N) :
    (dat3 V c).flushed 2 t = ((cfg3.win 2).blk t).view.read (Elt Ideal)
      (biased (V c main_v72) (V c main_v73) hb) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := block_index t
  funext j
  refine (body_apply (iblk3 V c 0 t) (iblk3 V c 1 t) j).trans ?_
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (j 1))
      = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  have hA : iblk3 V c 0 t j = V c main_v72 (((cfg3.win 2).blk t).view.emb j) := congrArg (V c main_v72) h0
  have hB : iblk3 V c 1 t (ix2 (0 : Fin 1) (j 1))
      = broadcastInDim S50000x64 ![0, 1] hb (V c main_v73) (((cfg3.win 2).blk t).view.emb j) :=
    (congrArg (V c main_v73) h1).trans (row_copied (V c main_v73) hb _).symm
  exact congrArg₂ (fun a b : Ideal .f32 => a + b) hA hB

/-- An index of the result array lies in point `t`'s block iff each coordinate lies in the block's range. -/
theorem mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v74).slice (win3_2.rect t)).set ↔ _
  rw [View.set_slice_whole, Rect.mem_set_unit]
  exact Iff.rfl

/-- Every index of the result array lies in the block of the point its row falls in. -/
theorem covered (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : (i 0).val / 5000 < cfg3.N := by show _ < grid3.N; rw [N_3]; omega
  refine ⟨⟨(i 0).val / 5000, hN⟩, flush3_2 _, ?_⟩
  obtain ⟨e0, e1, e2, e3, e4, e5⟩ := block_index ⟨(i 0).val / 5000, hN⟩
  rw [mem_block]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, hN⟩ (1 : Fin 2) * 64 ≤ (i 1).val
      ∧ (i 1).val < win3_2.index ⟨(i 0).val / 5000, hN⟩ (1 : Fin 2) * 64 + 64
    rw [e5]; omega

/-- After the region the result array is the input array plus the row copied down every row. -/
theorem array_eq (c : Dev nD) (hb : S1x64.BroadcastsInDim S50000x64 ![0, 1]) :
    (dat3 V c).arrAt 2 cfg3.N = biased (V c main_v72) (V c main_v73) hb :=
  (dat3 V c).arrAt_eq_of_cover 2 _ (fun t _ => flushed_eq V c hb t) covered

end Cert.KernelIdeal.BiasAdd

end
-- ==== Proof.Network.lean ====
/-
  The three-layer graph convolution as one function of the argument arrays, and the reference program's result.

  With the edges' sources, targets and coefficients computed once from the edge list and the edge weights, a layer
  multiplies the node features by its weight matrix and aggregates the products along the edges.  Between two layers
  the layer's bias vector, laid out as a row and copied down every node, is added and the sum is rectified; after
  the last layer its bias is added.  The reference program computes exactly this composition.
-/
import proofs.«106877_j31250182045755_1_alg».proof.Proof.Layers
import proofs.«106877_j31250182045755_1_alg».proof.Proof.Product
import proofs.«106877_j31250182045755_1_alg».proof.Proof.Hidden
import proofs.«106877_j31250182045755_1_alg».proof.Proof.Final
import proofs.«106877_j31250182045755_1_alg».proof.Proof.BiasAdd
import proofs.«106877_j31250182045755_1_alg».proof.Proof.Gen.ReferenceIdeal.Run

set_option maxRecDepth 65536
set_option maxHeartbeats 4000000

noncomputable section

namespace Cert.Network

open Cert.ReferenceIdeal Cert.ReferenceIdeal.Gen Cert.Layers Idealize.ShloMosaic Idealize.ShloMosaic.TcCoe Idealize.SL.Sem

abbrev Weights128 := (⟨S128x128, .f32⟩ : BufTy).Contents (Elt Ideal)
abbrev Weights64 := (⟨S128x64, .f32⟩ : BufTy).Contents (Elt Ideal)
abbrev Bias128 := (⟨S128, .f32⟩ : BufTy).Contents (Elt Ideal)
abbrev Bias64 := (⟨S64, .f32⟩ : BufTy).Contents (Elt Ideal)

/-- A bias vector of 128 entries as a single row. -/
abbrev biasRow128 (b : Bias128) : (⟨S1x128, .f32⟩ : BufTy).Contents (Elt Ideal) :=
  broadcastInDim S1x128 ![1] bcast_S128_S1x128_1 b

/-- A bias vector of 64 entries as a single row. -/
abbrev biasRow64 (b : Bias64) : (⟨S1x64, .f32⟩ : BufTy).Contents (Elt Ideal) :=
  broadcastInDim S1x64 ![1] bcast_S64_S1x64_1 b

/-- The first layer before its bias: the features times the first weights, aggregated along the edges. -/
abbrev layer1 (x : Feat128) (e : EdgeList) (w : EdgeVal) (W1 : Weights128) : Feat128 :=
  aggregate128 (rowOf e) (colOf e) (normOf (rowOf e) (colOf e) w)
    (Cert.KernelIdeal.Product.product dot_S50000x128_S128x128_S50000x128_1_0_0_1_n_n x W1)

/-- The second layer before its bias. -/
abbrev layer2 (x : Feat128) (e : EdgeList) (w : EdgeVal) (W1 : Weights128) (b1 : Bias128) (W2 : Weights128) : Feat128 :=
  aggregate128 (rowOf e) (colOf e) (normOf (rowOf e) (colOf e) w)
    (Cert.KernelIdeal.Hidden.product dot_S50000x128_S128x128_S50000x128_1_0_0_1_n_n
      (Cert.KernelIdeal.Hidden.rectified (layer1 x e w W1) (biasRow128 b1) bcast_S1x128_S50000x128_0_1 bcast_S_S50000x128) W2)

/-- The third layer before its bias. -/
abbrev layer3 (x : Feat128) (e : EdgeList) (w : EdgeVal) (W1 : Weights128) (b1 : Bias128) (W2 : Weights128)
    (b2 : Bias128) (W3 : Weights64) : Feat64 :=
  aggregate64 (rowOf e) (colOf e) (normOf (rowOf e) (colOf e) w)
    (Cert.KernelIdeal.Final.product dot_S50000x128_S128x64_S50000x64_1_0_0_1_n_n
      (Cert.KernelIdeal.Final.rectified (layer2 x e w W1 b1 W2) (biasRow128 b2) bcast_S1x128_S50000x128_0_1 bcast_S_S50000x128) W3)

/-- The network's output. -/
abbrev network (x : Feat128) (e : EdgeList) (w : EdgeVal) (W1 : Weights128) (b1 : Bias128) (W2 : Weights128)
    (b2 : Bias128) (W3 : Weights64) (b3 : Bias64) : Feat64 :=
  Cert.KernelIdeal.BiasAdd.biased (layer3 x e w W1 b1 W2 b2 W3) (biasRow64 b3) bcast_S1x64_S50000x64_0_1

/-- The reference program's result is the network's output at its argument arrays. -/
theorem reference_result (m : (ℓ : Loc nD τ sig) → Buf (Elt Ideal) ℓ) (c : Dev nD) :
    Cert.ReferenceIdeal.Value.res_main_v93 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Cert.ReferenceIdeal.Value.res_main_v93
  rfl

end Cert.Network

end
-- ==== Proof.Opening.lean ====
/-
  What the stretches of host operations before the first kernel region compute, from any buffer contents `W`.

  The first stretch splits the edge list into the edges' sources and targets and computes, from the targets and the
  edge weights, where a node's degree is greater than 0 and the reciprocal square root of the raised degree.  The
  second selects between that root and zero, node by node.  The third multiplies, edge by edge, the source's
  normaliser, the weight and the target's normaliser.  Together they leave the sources, the targets and the edges'
  coefficients in three buffers, and they write no argument array.
-/
import proofs.«106877_j31250182045755_1_alg».proof.Proof.Gen.KernelIdeal.Launch
import proofs.«106877_j31250182045755_1_alg».proof.Proof.Layers
import Idealize.ShloMosaic.Lib.StableHlo.Run

set_option maxRecDepth 16384
set_option maxHeartbeats 4000000

noncomputable section

namespace Cert.KernelIdeal.Opening

open Cert.KernelIdeal Cert.KernelIdeal.Gen Cert.Layers
open Idealize.ShloMosaic Idealize.ShloMosaic.TcCoe Idealize.ShloMosaic.StableHlo Idealize.SL.Sem

variable (W : Valuation τ sig (Elt Ideal))

/-! ## The first stretch -/

theorem first_row : StableHlo.after (hostOps0 (F := Ideal)) W (Proc.devRef .tc main_v1) = rowOf (W (Proc.devRef .tc main_arg1)) := by
  after_results <;> rfl

theorem first_col : StableHlo.after (hostOps0 (F := Ideal)) W (Proc.devRef .tc main_v3) = colOf (W (Proc.devRef .tc main_arg1)) := by
  after_results <;> rfl

theorem first_mask : StableHlo.after (hostOps0 (F := Ideal)) W (Proc.devRef .tc main_v8)
    = maskOf (colOf (W (Proc.devRef .tc main_arg1))) (W (Proc.devRef .tc main_arg2)) := by
  after_results <;> rfl

theorem first_root : StableHlo.after (hostOps0 (F := Ideal)) W (Proc.devRef .tc main_v11)
    = rootOf (colOf (W (Proc.devRef .tc main_arg1))) (W (Proc.devRef .tc main_arg2)) := by
  after_results <;> rfl

theorem first_zero : StableHlo.after (hostOps0 (F := Ideal)) W (Proc.devRef .tc main_cst_2) = zeroScalar := by
  after_results <;> rfl

theorem first_keeps_main_arg2 : StableHlo.after (hostOps0 (F := Ideal)) W (Proc.devRef .tc main_arg2) = W (Proc.devRef .tc main_arg2) := by
  after_results

/-! ## The second stretch: the selection -/

theorem where_pick : StableHlo.after (hostOps0_1 (F := Ideal)) W (Proc.devRef .tc main_v12)
    = pick (W (Proc.devRef .tc main_v8)) (W (Proc.devRef .tc main_v11)) (W (Proc.devRef .tc main_cst_2)) := by
  after_results <;> rfl

theorem where_keeps_main_v1 : StableHlo.after (hostOps0_1 (F := Ideal)) W (Proc.devRef .tc main_v1) = W (Proc.devRef .tc main_v1) := by
  after_results
theorem where_keeps_main_v3 : StableHlo.after (hostOps0_1 (F := Ideal)) W (Proc.devRef .tc main_v3) = W (Proc.devRef .tc main_v3) := by
  after_results
theorem where_keeps_main_arg2 : StableHlo.after (hostOps0_1 (F := Ideal)) W (Proc.devRef .tc main_arg2) = W (Proc.devRef .tc main_arg2) := by
  after_results

/-! ## The third stretch: the coefficients -/

theorem third_coeff : StableHlo.after (hostOps0_2 (F := Ideal)) W (Proc.devRef .tc main_v28)
    = coeff (W (Proc.devRef .tc main_v1)) (W (Proc.devRef .tc main_v3)) (W (Proc.devRef .tc main_v12)) (W (Proc.devRef .tc main_arg2)) := by
  after_results <;> rfl

theorem third_keeps_main_v1 : StableHlo.after (hostOps0_2 (F := Ideal)) W (Proc.devRef .tc main_v1) = W (Proc.devRef .tc main_v1) := by
  after_results
theorem third_keeps_main_v3 : StableHlo.after (hostOps0_2 (F := Ideal)) W (Proc.devRef .tc main_v3) = W (Proc.devRef .tc main_v3) := by
  after_results

/-! ## The three stretches together -/

/-- The contents after the three opening stretches. -/
abbrev opening : Valuation τ sig (Elt Ideal) :=
  StableHlo.after (hostOps0_2 (F := Ideal)) (StableHlo.after (hostOps0_1 (F := Ideal)) (StableHlo.after (hostOps0 (F := Ideal)) W))

/-- They leave the edges' sources in their buffer. -/
theorem opening_row : opening W (Proc.devRef .tc main_v1) = rowOf (W (Proc.devRef .tc main_arg1)) :=
  (third_keeps_main_v1 _).trans ((where_keeps_main_v1 _).trans (first_row W))

/-- They leave the edges' targets in their buffer. -/
theorem opening_col : opening W (Proc.devRef .tc main_v3) = colOf (W (Proc.devRef .tc main_arg1)) :=
  (third_keeps_main_v3 _).trans ((where_keeps_main_v3 _).trans (first_col W))

/-- They leave the edges' coefficients in their buffer. -/
theorem opening_norm : opening W (Proc.devRef .tc main_v28)
    = normOf (rowOf (W (Proc.devRef .tc main_arg1))) (colOf (W (Proc.devRef .tc main_arg1))) (W (Proc.devRef .tc main_arg2)) := by
  refine (third_coeff _).trans ?_
  rw [where_keeps_main_v1, where_keeps_main_v3, where_keeps_main_arg2, where_pick, first_row, first_col, first_mask,
    first_root, first_zero, first_keeps_main_arg2]

/-! They write no argument array. -/
theorem opening_keeps_main_arg0 : opening W (Proc.devRef .tc main_arg0) = W (Proc.devRef .tc main_arg0) := by
  after_results
theorem opening_keeps_main_arg3 : opening W (Proc.devRef .tc main_arg3) = W (Proc.devRef .tc main_arg3) := by
  after_results
theorem opening_keeps_main_arg4 : opening W (Proc.devRef .tc main_arg4) = W (Proc.devRef .tc main_arg4) := by
  after_results
theorem opening_keeps_main_arg5 : opening W (Proc.devRef .tc main_arg5) = W (Proc.devRef .tc main_arg5) := by
  after_results
theorem opening_keeps_main_arg6 : opening W (Proc.devRef .tc main_arg6) = W (Proc.devRef .tc main_arg6) := by
  after_results
theorem opening_keeps_main_arg7 : opening W (Proc.devRef .tc main_arg7) = W (Proc.devRef .tc main_arg7) := by
  after_results
theorem opening_keeps_main_arg8 : opening W (Proc.devRef .tc main_arg8) = W (Proc.devRef .tc main_arg8) := by
  after_results

end Cert.KernelIdeal.Opening

end
-- ==== Proof.Stretches.lean ====
/-
  What each stretch of host operations between two kernel regions computes, from any buffer contents `W`.

  The stretch before each later region computes one aggregation of the previous region's result and lays the layer's
  bias vector out as a single row; it leaves the edges' sources, targets and coefficients and the argument arrays as
  they were.
-/
import proofs.«106877_j31250182045755_1_alg».proof.Proof.Gen.KernelIdeal.Launch
import proofs.«106877_j31250182045755_1_alg».proof.Proof.Layers
import Idealize.ShloMosaic.Lib.StableHlo.Run

set_option maxRecDepth 16384
set_option maxHeartbeats 4000000

noncomputable section

namespace Cert.KernelIdeal.Stretches

open Cert.KernelIdeal Cert.KernelIdeal.Gen Cert.Layers
open Idealize.ShloMosaic Idealize.ShloMosaic.TcCoe Idealize.ShloMosaic.StableHlo Idealize.SL.Sem

variable (W : Valuation τ sig (Elt Ideal))

/-! ## The stretch before the second region -/

theorem second_aggregate : StableHlo.after (hostOps1 (F := Ideal)) W (Proc.devRef .tc main_v42)
    = aggregate128 (W (Proc.devRef .tc main_v1)) (W (Proc.devRef .tc main_v3)) (W (Proc.devRef .tc main_v28)) (W (Proc.devRef .tc main_v29)) := by
  after_results <;> rfl

theorem second_bias : StableHlo.after (hostOps1 (F := Ideal)) W (Proc.devRef .tc main_v43)
    = shapeCast _ (W (Proc.devRef .tc main_arg4)) shapeCasts_S128_S1x128 := by
  after_results <;> rfl

theorem second_keeps_main_v1 : StableHlo.after (hostOps1 (F := Ideal)) W (Proc.devRef .tc main_v1) = W (Proc.devRef .tc main_v1) := by
  after_results
theorem second_keeps_main_v3 : StableHlo.after (hostOps1 (F := Ideal)) W (Proc.devRef .tc main_v3) = W (Proc.devRef .tc main_v3) := by
  after_results
theorem second_keeps_main_v28 : StableHlo.after (hostOps1 (F := Ideal)) W (Proc.devRef .tc main_v28) = W (Proc.devRef .tc main_v28) := by
  after_results
theorem second_keeps_main_arg5 : StableHlo.after (hostOps1 (F := Ideal)) W (Proc.devRef .tc main_arg5) = W (Proc.devRef .tc main_arg5) := by
  after_results
theorem second_keeps_main_arg6 : StableHlo.after (hostOps1 (F := Ideal)) W (Proc.devRef .tc main_arg6) = W (Proc.devRef .tc main_arg6) := by
  after_results
theorem second_keeps_main_arg7 : StableHlo.after (hostOps1 (F := Ideal)) W (Proc.devRef .tc main_arg7) = W (Proc.devRef .tc main_arg7) := by
  after_results
theorem second_keeps_main_arg8 : StableHlo.after (hostOps1 (F := Ideal)) W (Proc.devRef .tc main_arg8) = W (Proc.devRef .tc main_arg8) := by
  after_results

/-! ## The stretch before the third region -/

theorem third_aggregate : StableHlo.after (hostOps2 (F := Ideal)) W (Proc.devRef .tc main_v57)
    = aggregate128 (W (Proc.devRef .tc main_v1)) (W (Proc.devRef .tc main_v3)) (W (Proc.devRef .tc main_v28)) (W (Proc.devRef .tc main_v44)) := by
  after_results <;> rfl

theorem third_bias : StableHlo.after (hostOps2 (F := Ideal)) W (Proc.devRef .tc main_v58)
    = shapeCast _ (W (Proc.devRef .tc main_arg6)) shapeCasts_S128_S1x128 := by
  after_results <;> rfl

theorem third_keeps_main_v1 : StableHlo.after (hostOps2 (F := Ideal)) W (Proc.devRef .tc main_v1) = W (Proc.devRef .tc main_v1) := by
  after_results
theorem third_keeps_main_v3 : StableHlo.after (hostOps2 (F := Ideal)) W (Proc.devRef .tc main_v3) = W (Proc.devRef .tc main_v3) := by
  after_results
theorem third_keeps_main_v28 : StableHlo.after (hostOps2 (F := Ideal)) W (Proc.devRef .tc main_v28) = W (Proc.devRef .tc main_v28) := by
  after_results
theorem third_keeps_main_arg7 : StableHlo.after (hostOps2 (F := Ideal)) W (Proc.devRef .tc main_arg7) = W (Proc.devRef .tc main_arg7) := by
  after_results
theorem third_keeps_main_arg8 : StableHlo.after (hostOps2 (F := Ideal)) W (Proc.devRef .tc main_arg8) = W (Proc.devRef .tc main_arg8) := by
  after_results

/-! ## The stretch before the last region -/

theorem last_aggregate : StableHlo.after (hostOps3 (F := Ideal)) W (Proc.devRef .tc main_v72)
    = aggregate64 (W (Proc.devRef .tc main_v1)) (W (Proc.devRef .tc main_v3)) (W (Proc.devRef .tc main_v28)) (W (Proc.devRef .tc main_v59)) := by
  after_results <;> rfl

theorem last_bias : StableHlo.after (hostOps3 (F := Ideal)) W (Proc.devRef .tc main_v73)
    = shapeCast _ (W (Proc.devRef .tc main_arg8)) shapeCasts_S64_S1x64 := by
  after_results <;> rfl

end Cert.KernelIdeal.Stretches

end
-- ==== Proof.KernelValue.lean ====
/-
  The idealized kernel's result array, read back through the boundaries between its segments.

  At each boundary the edges' sources, targets and coefficients, and the argument arrays still to be used, are what
  the opening stretches left; a kernel region replaces its result array by the region's function of its input
  arrays and keeps every other buffer; a stretch of host operations aggregates the region's result and lays the next
  bias vector out as a row.  Followed from the launch memory to the last boundary, this makes the result array the
  network's output at the argument arrays.
-/
import proofs.«106877_j31250182045755_1_alg».proof.Proof.Gen.KernelIdeal.Frame
import proofs.«106877_j31250182045755_1_alg».proof.Proof.Network
import proofs.«106877_j31250182045755_1_alg».proof.Proof.Opening
import proofs.«106877_j31250182045755_1_alg».proof.Proof.Stretches
import proofs.«106877_j31250182045755_1_alg».proof.Proof.LibHostRowScalar

set_option maxRecDepth 65536
set_option maxHeartbeats 4000000

noncomputable section

namespace Cert.KernelIdeal.Result

open Cert.KernelIdeal Cert.KernelIdeal.Gen Cert.Layers Cert.Network
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## At the first region's entry -/
theorem w3_main_v1 : W3 m ρ c (Proc.devRef .tc main_v1) = (rowOf (m ((c : Thread nD τ).loc main_arg1))) := Opening.opening_row (W0 m ρ c)
theorem w3_main_v3 : W3 m ρ c (Proc.devRef .tc main_v3) = (colOf (m ((c : Thread nD τ).loc main_arg1))) := Opening.opening_col (W0 m ρ c)
theorem w3_main_v28 : W3 m ρ c (Proc.devRef .tc main_v28) = (normOf (rowOf (m ((c : Thread nD τ).loc main_arg1))) (colOf (m ((c : Thread nD τ).loc main_arg1))) (m ((c : Thread nD τ).loc main_arg2))) := Opening.opening_norm (W0 m ρ c)
theorem w3_main_arg0 : W3 m ρ c (Proc.devRef .tc main_arg0) = (m ((c : Thread nD τ).loc main_arg0)) := Opening.opening_keeps_main_arg0 (W0 m ρ c)
theorem w3_main_arg3 : W3 m ρ c (Proc.devRef .tc main_arg3) = (m ((c : Thread nD τ).loc main_arg3)) := Opening.opening_keeps_main_arg3 (W0 m ρ c)
theorem w3_main_arg4 : W3 m ρ c (Proc.devRef .tc main_arg4) = (m ((c : Thread nD τ).loc main_arg4)) := Opening.opening_keeps_main_arg4 (W0 m ρ c)
theorem w3_main_arg5 : W3 m ρ c (Proc.devRef .tc main_arg5) = (m ((c : Thread nD τ).loc main_arg5)) := Opening.opening_keeps_main_arg5 (W0 m ρ c)
theorem w3_main_arg6 : W3 m ρ c (Proc.devRef .tc main_arg6) = (m ((c : Thread nD τ).loc main_arg6)) := Opening.opening_keeps_main_arg6 (W0 m ρ c)
theorem w3_main_arg7 : W3 m ρ c (Proc.devRef .tc main_arg7) = (m ((c : Thread nD τ).loc main_arg7)) := Opening.opening_keeps_main_arg7 (W0 m ρ c)
theorem w3_main_arg8 : W3 m ρ c (Proc.devRef .tc main_arg8) = (m ((c : Thread nD τ).loc main_arg8)) := Opening.opening_keeps_main_arg8 (W0 m ρ c)

/-! ## After the first region: the features times the first weights -/
theorem w4_main_v29 : W4 m ρ c (Proc.devRef .tc main_v29)
    = Product.product Cert.ReferenceIdeal.dot_S50000x128_S128x128_S50000x128_1_0_0_1_n_n (m ((c : Thread nD τ).loc main_arg0)) (m ((c : Thread nD τ).loc main_arg3)) := by
  refine (W4_arr m ρ c 2).trans ?_
  refine (Product.array_eq (V3 m ρ) Cert.ReferenceIdeal.dot_S50000x128_S128x128_S50000x128_1_0_0_1_n_n rfl rfl (fun _ _ => rfl) (fun _ _ => rfl) (fun _ _ => rfl) (fun _ _ => rfl) c).trans ?_
  show Product.product Cert.ReferenceIdeal.dot_S50000x128_S128x128_S50000x128_1_0_0_1_n_n (W3 m ρ c (Proc.devRef .tc main_arg0)) (W3 m ρ c (Proc.devRef .tc main_arg3)) = _
  rw [w3_main_arg0, w3_main_arg3]
theorem w4_main_v1 : W4 m ρ c (Proc.devRef .tc main_v1) = (rowOf (m ((c : Thread nD τ).loc main_arg1))) :=
  (W4_of_ne m ρ c main_v1 (by decide)).trans (w3_main_v1 m ρ c)
theorem w4_main_v3 : W4 m ρ c (Proc.devRef .tc main_v3) = (colOf (m ((c : Thread nD τ).loc main_arg1))) :=
  (W4_of_ne m ρ c main_v3 (by decide)).trans (w3_main_v3 m ρ c)
theorem w4_main_v28 : W4 m ρ c (Proc.devRef .tc main_v28) = (normOf (rowOf (m ((c : Thread nD τ).loc main_arg1))) (colOf (m ((c : Thread nD τ).loc main_arg1))) (m ((c : Thread nD τ).loc main_arg2))) :=
  (W4_of_ne m ρ c main_v28 (by decide)).trans (w3_main_v28 m ρ c)
theorem w4_main_arg4 : W4 m ρ c (Proc.devRef .tc main_arg4) = (m ((c : Thread nD τ).loc main_arg4)) :=
  (W4_of_ne m ρ c main_arg4 (by decide)).trans (w3_main_arg4 m ρ c)
theorem w4_main_arg5 : W4 m ρ c (Proc.devRef .tc main_arg5) = (m ((c : Thread nD τ).loc main_arg5)) :=
  (W4_of_ne m ρ c main_arg5 (by decide)).trans (w3_main_arg5 m ρ c)
theorem w4_main_arg6 : W4 m ρ c (Proc.devRef .tc main_arg6) = (m ((c : Thread nD τ).loc main_arg6)) :=
  (W4_of_ne m ρ c main_arg6 (by decide)).trans (w3_main_arg6 m ρ c)
theorem w4_main_arg7 : W4 m ρ c (Proc.devRef .tc main_arg7) = (m ((c : Thread nD τ).loc main_arg7)) :=
  (W4_of_ne m ρ c main_arg7 (by decide)).trans (w3_main_arg7 m ρ c)
theorem w4_main_arg8 : W4 m ρ c (Proc.devRef .tc main_arg8) = (m ((c : Thread nD τ).loc main_arg8)) :=
  (W4_of_ne m ρ c main_arg8 (by decide)).trans (w3_main_arg8 m ρ c)

/-! ## At the second region's entry: the first layer and its bias row -/
theorem w5_main_v42 : W5 m ρ c (Proc.devRef .tc main_v42) = (layer1 (m ((c : Thread nD τ).loc main_arg0)) (m ((c : Thread nD τ).loc main_arg1)) (m ((c : Thread nD τ).loc main_arg2)) (m ((c : Thread nD τ).loc main_arg3))) := by
  refine (Stretches.second_aggregate (W4 m ρ c)).trans ?_
  rw [w4_main_v1, w4_main_v3, w4_main_v28, w4_main_v29]
theorem w5_main_v43 : W5 m ρ c (Proc.devRef .tc main_v43) = biasRow128 (m ((c : Thread nD τ).loc main_arg4)) := by
  refine (Stretches.second_bias (W4 m ρ c)).trans ?_
  rw [w4_main_arg4]
  exact shapeCast_row_eq_broadcastInDim _ _ _
theorem w5_main_v1 : W5 m ρ c (Proc.devRef .tc main_v1) = (rowOf (m ((c : Thread nD τ).loc main_arg1))) :=
  (Stretches.second_keeps_main_v1 (W4 m ρ c)).trans (w4_main_v1 m ρ c)
theorem w5_main_v3 : W5 m ρ c (Proc.devRef .tc main_v3) = (colOf (m ((c : Thread nD τ).loc main_arg1))) :=
  (Stretches.second_keeps_main_v3 (W4 m ρ c)).trans (w4_main_v3 m ρ c)
theorem w5_main_v28 : W5 m ρ c (Proc.devRef .tc main_v28) = (normOf (rowOf (m ((c : Thread nD τ).loc main_arg1))) (colOf (m ((c : Thread nD τ).loc main_arg1))) (m ((c : Thread nD τ).loc main_arg2))) :=
  (Stretches.second_keeps_main_v28 (W4 m ρ c)).trans (w4_main_v28 m ρ c)
theorem w5_main_arg5 : W5 m ρ c (Proc.devRef .tc main_arg5) = (m ((c : Thread nD τ).loc main_arg5)) :=
  (Stretches.second_keeps_main_arg5 (W4 m ρ c)).trans (w4_main_arg5 m ρ c)
theorem w5_main_arg6 : W5 m ρ c (Proc.devRef .tc main_arg6) = (m ((c : Thread nD τ).loc main_arg6)) :=
  (Stretches.second_keeps_main_arg6 (W4 m ρ c)).trans (w4_main_arg6 m ρ c)
theorem w5_main_arg7 : W5 m ρ c (Proc.devRef .tc main_arg7) = (m ((c : Thread nD τ).loc main_arg7)) :=
  (Stretches.second_keeps_main_arg7 (W4 m ρ c)).trans (w4_main_arg7 m ρ c)
theorem w5_main_arg8 : W5 m ρ c (Proc.devRef .tc main_arg8) = (m ((c : Thread nD τ).loc main_arg8)) :=
  (Stretches.second_keeps_main_arg8 (W4 m ρ c)).trans (w4_main_arg8 m ρ c)

/-! ## After the second region -/
theorem w6_main_v44 : W6 m ρ c (Proc.devRef .tc main_v44)
    = Hidden.product Cert.ReferenceIdeal.dot_S50000x128_S128x128_S50000x128_1_0_0_1_n_n (Hidden.rectified (layer1 (m ((c : Thread nD τ).loc main_arg0)) (m ((c : Thread nD τ).loc main_arg1)) (m ((c : Thread nD τ).loc main_arg2)) (m ((c : Thread nD τ).loc main_arg3))) (biasRow128 (m ((c : Thread nD τ).loc main_arg4))) Cert.ReferenceIdeal.Gen.bcast_S1x128_S50000x128_0_1 Cert.ReferenceIdeal.Gen.bcast_S_S50000x128) (m ((c : Thread nD τ).loc main_arg5)) := by
  refine (W6_arr m ρ c 3).trans ?_
  refine (Hidden.array_eq (V5 m ρ) Cert.ReferenceIdeal.dot_S50000x128_S128x128_S50000x128_1_0_0_1_n_n rfl rfl (fun _ _ => rfl) (fun _ _ => rfl) (fun _ _ => rfl) (fun _ _ => rfl) Cert.ReferenceIdeal.Gen.bcast_S1x128_S50000x128_0_1 Cert.ReferenceIdeal.Gen.bcast_S_S50000x128 c).trans ?_
  show Hidden.product Cert.ReferenceIdeal.dot_S50000x128_S128x128_S50000x128_1_0_0_1_n_n (Hidden.rectified (W5 m ρ c (Proc.devRef .tc main_v42)) (W5 m ρ c (Proc.devRef .tc main_v43)) Cert.ReferenceIdeal.Gen.bcast_S1x128_S50000x128_0_1 Cert.ReferenceIdeal.Gen.bcast_S_S50000x128)
      (W5 m ρ c (Proc.devRef .tc main_arg5)) = _
  rw [w5_main_v42, w5_main_v43, w5_main_arg5]
theorem w6_main_v1 : W6 m ρ c (Proc.devRef .tc main_v1) = (rowOf (m ((c : Thread nD τ).loc main_arg1))) :=
  (W6_of_ne m ρ c main_v1 (by decide)).trans (w5_main_v1 m ρ c)
theorem w6_main_v3 : W6 m ρ c (Proc.devRef .tc main_v3) = (colOf (m ((c : Thread nD τ).loc main_arg1))) :=
  (W6_of_ne m ρ c main_v3 (by decide)).trans (w5_main_v3 m ρ c)
theorem w6_main_v28 : W6 m ρ c (Proc.devRef .tc main_v28) = (normOf (rowOf (m ((c : Thread nD τ).loc main_arg1))) (colOf (m ((c : Thread nD τ).loc main_arg1))) (m ((c : Thread nD τ).loc main_arg2))) :=
  (W6_of_ne m ρ c main_v28 (by decide)).trans (w5_main_v28 m ρ c)
theorem w6_main_arg6 : W6 m ρ c (Proc.devRef .tc main_arg6) = (m ((c : Thread nD τ).loc main_arg6)) :=
  (W6_of_ne m ρ c main_arg6 (by decide)).trans (w5_main_arg6 m ρ c)
theorem w6_main_arg7 : W6 m ρ c (Proc.devRef .tc main_arg7) = (m ((c : Thread nD τ).loc main_arg7)) :=
  (W6_of_ne m ρ c main_arg7 (by decide)).trans (w5_main_arg7 m ρ c)
theorem w6_main_arg8 : W6 m ρ c (Proc.devRef .tc main_arg8) = (m ((c : Thread nD τ).loc main_arg8)) :=
  (W6_of_ne m ρ c main_arg8 (by decide)).trans (w5_main_arg8 m ρ c)

/-! ## At the third region's entry: the second layer and its bias row -/
theorem w7_main_v57 : W7 m ρ c (Proc.devRef .tc main_v57) = (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (Stretches.third_aggregate (W6 m ρ c)).trans ?_
  rw [w6_main_v1, w6_main_v3, w6_main_v28, w6_main_v44]
theorem w7_main_v58 : W7 m ρ c (Proc.devRef .tc main_v58) = biasRow128 (m ((c : Thread nD τ).loc main_arg6)) := by
  refine (Stretches.third_bias (W6 m ρ c)).trans ?_
  rw [w6_main_arg6]
  exact shapeCast_row_eq_broadcastInDim _ _ _
theorem w7_main_v1 : W7 m ρ c (Proc.devRef .tc main_v1) = (rowOf (m ((c : Thread nD τ).loc main_arg1))) :=
  (Stretches.third_keeps_main_v1 (W6 m ρ c)).trans (w6_main_v1 m ρ c)
theorem w7_main_v3 : W7 m ρ c (Proc.devRef .tc main_v3) = (colOf (m ((c : Thread nD τ).loc main_arg1))) :=
  (Stretches.third_keeps_main_v3 (W6 m ρ c)).trans (w6_main_v3 m ρ c)
theorem w7_main_v28 : W7 m ρ c (Proc.devRef .tc main_v28) = (normOf (rowOf (m ((c : Thread nD τ).loc main_arg1))) (colOf (m ((c : Thread nD τ).loc main_arg1))) (m ((c : Thread nD τ).loc main_arg2))) :=
  (Stretches.third_keeps_main_v28 (W6 m ρ c)).trans (w6_main_v28 m ρ c)
theorem w7_main_arg7 : W7 m ρ c (Proc.devRef .tc main_arg7) = (m ((c : Thread nD τ).loc main_arg7)) :=
  (Stretches.third_keeps_main_arg7 (W6 m ρ c)).trans (w6_main_arg7 m ρ c)
theorem w7_main_arg8 : W7 m ρ c (Proc.devRef .tc main_arg8) = (m ((c : Thread nD τ).loc main_arg8)) :=
  (Stretches.third_keeps_main_arg8 (W6 m ρ c)).trans (w6_main_arg8 m ρ c)

/-! ## After the third region -/
theorem w8_main_v59 : W8 m ρ c (Proc.devRef .tc main_v59)
    = Final.product Cert.ReferenceIdeal.dot_S50000x128_S128x64_S50000x64_1_0_0_1_n_n (Final.rectified (layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (biasRow128 (m ((c : Thread nD τ).loc main_arg6))) Cert.ReferenceIdeal.Gen.bcast_S1x128_S50000x128_0_1 Cert.ReferenceIdeal.Gen.bcast_S_S50000x128) (m ((c : Thread nD τ).loc main_arg7)) := by
  refine (W8_arr m ρ c 3).trans ?_
  refine (Final.array_eq (V7 m ρ) Cert.ReferenceIdeal.dot_S50000x128_S128x64_S50000x64_1_0_0_1_n_n rfl rfl (fun _ _ => rfl) (fun _ _ => rfl) (fun _ _ => rfl) (fun _ _ => rfl) Cert.ReferenceIdeal.Gen.bcast_S1x128_S50000x128_0_1 Cert.ReferenceIdeal.Gen.bcast_S_S50000x128 c).trans ?_
  show Final.product Cert.ReferenceIdeal.dot_S50000x128_S128x64_S50000x64_1_0_0_1_n_n (Final.rectified (W7 m ρ c (Proc.devRef .tc main_v57)) (W7 m ρ c (Proc.devRef .tc main_v58)) Cert.ReferenceIdeal.Gen.bcast_S1x128_S50000x128_0_1 Cert.ReferenceIdeal.Gen.bcast_S_S50000x128)
      (W7 m ρ c (Proc.devRef .tc main_arg7)) = _
  rw [w7_main_v57, w7_main_v58, w7_main_arg7]
theorem w8_main_v1 : W8 m ρ c (Proc.devRef .tc main_v1) = (rowOf (m ((c : Thread nD τ).loc main_arg1))) :=
  (W8_of_ne m ρ c main_v1 (by decide)).trans (w7_main_v1 m ρ c)
theorem w8_main_v3 : W8 m ρ c (Proc.devRef .tc main_v3) = (colOf (m ((c : Thread nD τ).loc main_arg1))) :=
  (W8_of_ne m ρ c main_v3 (by decide)).trans (w7_main_v3 m ρ c)
theorem w8_main_v28 : W8 m ρ c (Proc.devRef .tc main_v28) = (normOf (rowOf (m ((c : Thread nD τ).loc main_arg1))) (colOf (m ((c : Thread nD τ).loc main_arg1))) (m ((c : Thread nD τ).loc main_arg2))) :=
  (W8_of_ne m ρ c main_v28 (by decide)).trans (w7_main_v28 m ρ c)
theorem w8_main_arg8 : W8 m ρ c (Proc.devRef .tc main_arg8) = (m ((c : Thread nD τ).loc main_arg8)) :=
  (W8_of_ne m ρ c main_arg8 (by decide)).trans (w7_main_arg8 m ρ c)

/-! ## At the last region's entry: the third layer and its bias row -/
theorem w9_main_v72 : W9 m ρ c (Proc.devRef .tc main_v72) = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (Stretches.last_aggregate (W8 m ρ c)).trans ?_
  rw [w8_main_v1, w8_main_v3, w8_main_v28, w8_main_v59]
theorem w9_main_v73 : W9 m ρ c (Proc.devRef .tc main_v73) = biasRow64 (m ((c : Thread nD τ).loc main_arg8)) := by
  refine (Stretches.last_bias (W8 m ρ c)).trans ?_
  rw [w8_main_arg8]
  exact shapeCast_row_eq_broadcastInDim _ _ _

/-! ## After the last region -/
/-- The result array at the last boundary is the network's output at the argument arrays. -/
theorem result_eq : W10 m ρ c (Proc.devRef .tc main_v74) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ?_
  refine (BiasAdd.array_eq (V9 m ρ) c Cert.ReferenceIdeal.Gen.bcast_S1x64_S50000x64_0_1).trans ?_
  show BiasAdd.biased (W9 m ρ c (Proc.devRef .tc main_v72)) (W9 m ρ c (Proc.devRef .tc main_v73)) Cert.ReferenceIdeal.Gen.bcast_S1x64_S50000x64_0_1 = _
  rw [w9_main_v72, w9_main_v73]

end Cert.KernelIdeal.Result

end
-- ==== Proof.lean ====
/-
  A three-layer graph convolution computed by four kernels and the host operations between them equals, on the
  extended reals, its plain array-program reference.

  Both programs compute the edges' sources, targets and coefficients from the edge list and the edge weights by the same
  operations.  The kernel program multiplies the node features by each layer's weight matrix 5000 rows at a time,
  adding the previous layer's bias row and rectifying inside the same kernel, and adds the last bias in a kernel of
  its own; the reference multiplies whole arrays and adds each bias, laid out as a row and copied down the nodes, in
  operations of their own.  A block of rows of a matrix product is the product of that block of rows, and the ten
  blocks tile the array, so each kernel region's result array is the reference's operation applied to the region's
  input arrays; a change of float format is the identity on the extended reals; a vector reshaped to a single row is
  the vector copied into that row.  Every other operation is the same on both sides.  No law that needs finite values
  is used, so the precondition is never opened.

  The kernel program's run is read off its generated frame with the result array named (`KernelRun`), followed
  through the boundaries between its segments (`KernelValue`); the reference program's run is its generated run, whose
  result term is the network's output by unfolding (`Network`).
-/
import proofs.«106877_j31250182045755_1_alg».proof.Defs
import proofs.«106877_j31250182045755_1_alg».proof.Proof.Gen.Kernel
import proofs.«106877_j31250182045755_1_alg».proof.Proof.Gen.Kernel.Skeleton
import proofs.«106877_j31250182045755_1_alg».proof.Proof.Gen.Kernel.Launch
import proofs.«106877_j31250182045755_1_alg».proof.Proof.Gen.Kernel.Points
import proofs.«106877_j31250182045755_1_alg».proof.Proof.Gen.Kernel.Frame
import proofs.«106877_j31250182045755_1_alg».proof.Proof.Gen.KernelIdeal
import proofs.«106877_j31250182045755_1_alg».proof.Proof.Gen.KernelIdeal.Skeleton
import proofs.«106877_j31250182045755_1_alg».proof.Proof.Gen.KernelIdeal.Launch
import proofs.«106877_j31250182045755_1_alg».proof.Proof.Gen.KernelIdeal.Points
import proofs.«106877_j31250182045755_1_alg».proof.Proof.Gen.KernelIdeal.Frame
import proofs.«106877_j31250182045755_1_alg».proof.Proof.Gen.ReferenceIdeal
import proofs.«106877_j31250182045755_1_alg».proof.Proof.Gen.Pre_finite_inputs
import proofs.«106877_j31250182045755_1_alg».proof.Proof.Gen.ReferenceIdeal.Run
import proofs.«106877_j31250182045755_1_alg».proof.Proof.KernelRun
import proofs.«106877_j31250182045755_1_alg».proof.Proof.KernelValue
import proofs.«106877_j31250182045755_1_alg».proof.Proof.Network
import Idealize.ShloMosaic.Adequacy
import Idealize.ShloMosaic.Init

set_option maxRecDepth 65536

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the network's output at those
    arguments in their result arrays. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Result.result_eq m ρ c), (h c).2⟩)
      (Cert.KernelIdeal.Named.run m ρ)
  · refine (θ_run Cert.ReferenceIdeal.defs _ _).mono (fun r h c => ⟨(h c).1.trans ?_, (h c).2⟩)
      (Cert.ReferenceIdeal.Value.run (F := Ideal) m' ρ')
    rw [Cert.Network.reference_result, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
